-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x20000x85 : Shape := ⟨3, ![16, 20000, 85]⟩
abbrev S20000x4 : Shape := ⟨2, ![20000, 4]⟩
abbrev S_ : Shape := ⟨0, ![]⟩

class Facts : Prop where
  bcast_S_S16x20000x85 : S_.BroadcastsInDim S16x20000x85 (![] : Fin 0 → Fin S16x20000x85.rank)
  reducesTo_S16x20000x85_S_d0_1_2 : S16x20000x85.ReducesTo [0, 1, 2] S_
  h_S_ : 0 < S_.numel
  bcast_S_S20000x4 : S_.BroadcastsInDim S20000x4 (![] : Fin 0 → Fin S20000x4.rank)
  reducesTo_S20000x4_S_d0_1 : S20000x4.ReducesTo [0, 1] S_

variable [Facts]

def fn {F : FTy → Type} [FloatOps F] (main_arg0 : FVec F S16x20000x85 .f32) (main_arg1 : FVec F S20000x4 .f32) : IVec S_ 1 :=
  let main_v0 : FVec F S16x20000x85 .f32 := Host.absf main_arg0
  let main_cst : FVec F S_ .f32 := constant S_ .f32 0x7F800000#32
  let main_v1 : FVec F S16x20000x85 .f32 := broadcastInDim S16x20000x85 ![] bcast_S_S16x20000x85 main_cst
  let main_v2 : IVec S16x20000x85 1 := cmpf .olt main_v0 main_v1
  let main_c : IVec S_ 1 := constantI S_ 1 1#1
  let main_v3 : IVec S_ 1 := (fun x v => Host.reduce IntOp.andi x v reducesTo_S16x20000x85_S_d0_1_2 h_S_) main_v2 main_c
  let main_v4 : FVec F S20000x4 .f32 := Host.absf main_arg1
  let main_cst_0 : FVec F S_ .f32 := constant S_ .f32 0x7F800000#32
  let main_v5 : FVec F S20000x4 .f32 := broadcastInDim S20000x4 ![] bcast_S_S20000x4 main_cst_0
  let main_v6 : IVec S20000x4 1 := cmpf .olt main_v4 main_v5
  let main_c_1 : IVec S_ 1 := constantI S_ 1 1#1
  let main_v7 : IVec S_ 1 := (fun x v => Host.reduce IntOp.andi x v reducesTo_S20000x4_S_d0_1 h_S_) main_v6 main_c_1
  let main_v8 : IVec S_ 1 := andi main_v3 main_v7
  main_v8
-- ==== Kernel.lean ====
abbrev S16x20000x85 : Shape := ⟨3, ![16, 20000, 85]⟩
abbrev S20000x4 : Shape := ⟨2, ![20000, 4]⟩
abbrev S16x20000x4 : Shape := ⟨3, ![16, 20000, 4]⟩
abbrev S16x20000x81 : Shape := ⟨3, ![16, 20000, 81]⟩
abbrev S1x2000x85 : Shape := ⟨3, ![1, 2000, 85]⟩
abbrev S2000x4 : Shape := ⟨2, ![2000, 4]⟩
abbrev S1x2000x4 : Shape := ⟨3, ![1, 2000, 4]⟩
abbrev S1x2000x81 : Shape := ⟨3, ![1, 2000, 81]⟩
abbrev S2000x85 : Shape := ⟨2, ![2000, 85]⟩
abbrev S2000x1 : Shape := ⟨2, ![2000, 1]⟩
abbrev S2000x81 : Shape := ⟨2, ![2000, 81]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S16x20000x85, .f32⟩
  | .hbm, ⟨1, _⟩ => ⟨S20000x4, .f32⟩
  | .hbm, ⟨2, _⟩ => ⟨S16x20000x4, .f32⟩
  | .hbm, ⟨3, _⟩ => ⟨S16x20000x81, .i32⟩
  | .hbm, ⟨4, _⟩ => ⟨S_, .i32⟩
  | .hbm, ⟨5, _⟩ => ⟨S16x20000x81, .i32⟩
  | .hbm, ⟨6, _⟩ => ⟨S16x20000x81, .i1⟩
  | .hbm, ⟨7, _⟩ => ⟨S16x20000x81, .i1⟩
  | .local _ .vmem, ⟨0, _⟩ => ⟨S1x2000x85, .f32⟩
  | .local _ .vmem, ⟨1, _⟩ => ⟨S1x2000x85, .f32⟩
  | .local _ .vmem, ⟨2, _⟩ => ⟨S2000x4, .f32⟩
  | .local _ .vmem, ⟨3, _⟩ => ⟨S2000x4, .f32⟩
  | .local _ .vmem, ⟨4, _⟩ => ⟨S1x2000x4, .f32⟩
  | .local _ .vmem, ⟨5, _⟩ => ⟨S1x2000x4, .f32⟩
  | .local _ .vmem, ⟨6, _⟩ => ⟨S1x2000x81, .i32⟩
  | .local _ .vmem, ⟨7, _⟩ => ⟨S1x2000x81, .i32⟩
  | _, _ => ⟨S16x20000x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2000x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2000x81 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2000x85_S1x2000x85_0_0_0 : ∀ a, (![0, 0, 0] : Fin 3 → Nat) a + S1x2000x85.size a ≤ S1x2000x85.size a
  h_S1x2000x85 : 0 < S1x2000x85.numel
  shapeCasts_S1x2000x85_S2000x85 : S1x2000x85.ShapeCasts S2000x85
  inb_S2000x4_S2000x4_0_0 : ∀ a, (![0, 0] : Fin 2 → Nat) a + S2000x4.size a ≤ S2000x4.size a
  h_S2000x4 : 0 < S2000x4.numel
  slices_S2000x4_o0_0_S2000x1 : S2000x4.Slices ![0, 0] S2000x1
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  slices_S2000x85_o0_0_S2000x1 : S2000x85.Slices ![0, 0] S2000x1
  slices_S2000x85_o0_1_S2000x1 : S2000x85.Slices ![0, 1] S2000x1
  slices_S2000x85_o0_2_S2000x1 : S2000x85.Slices ![0, 2] S2000x1
  slices_S2000x85_o0_3_S2000x1 : S2000x85.Slices ![0, 3] S2000x1
  concatenates_S2000x1_S2000x1_S2000x1_S2000x1_S2000x4_d1 : Shape.Concatenates [S2000x1, S2000x1, S2000x1, S2000x1] S2000x4 1
  inb_S1x2000x4_S1x2000x4_0_0_0 : ∀ a, (![0, 0, 0] : Fin 3 → Nat) a + S1x2000x4.size a ≤ S1x2000x4.size a
  h_S1x2000x4 : 0 < S1x2000x4.numel
  shapeCasts_S1x2000x4_S2000x4 : S1x2000x4.ShapeCasts S2000x4
  shapeCasts_S2000x4_S1x2000x4 : S2000x4.ShapeCasts S1x2000x4
  slices_S2000x85_o0_4_S2000x81 : S2000x85.Slices ![0, 4] S2000x81
  inb_S1x2000x81_S1x2000x81_0_0_0 : ∀ a, (![0, 0, 0] : Fin 3 → Nat) a + S1x2000x81.size a ≤ S1x2000x81.size a
  h_S1x2000x81 : 0 < S1x2000x81.numel
  natLt_1_32 : 1 < 32
  shapeCasts_S1x2000x81_S2000x81 : S1x2000x81.ShapeCasts S2000x81
  shapeCasts_S2000x81_S1x2000x81 : S2000x81.ShapeCasts S1x2000x81
  bcast_S_S16x20000x81 : S_.BroadcastsInDim S16x20000x81 (![] : Fin 0 → Fin S16x20000x81.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x85.size a ≤ S16x20000x85.size a
  hwx0_0 : ∀ i : grid0.Coords, EltTy.bits .f32 = 32 ∨ (Rect.block (s := S16x20000x85) S1x2000x85.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x4.size a ≤ S20000x4.size a
  hwx0_1 : ∀ i : grid0.Coords, EltTy.bits .f32 = 32 ∨ (Rect.block (s := S20000x4) S2000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x4.size a ≤ S16x20000x4.size a
  hwx0_2 : ∀ i : grid0.Coords, EltTy.bits .f32 = 32 ∨ (Rect.block (s := S16x20000x4) S1x2000x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x81.size a ≤ S16x20000x81.size a
  hwx0_3 : ∀ i : grid0.Coords, EltTy.bits .i32 = 32 ∨ (Rect.block (s := S16x20000x81) S1x2000x81.size (cc0_transform_3 i) (hinb0_3 i)).WholeWords (EltTy.packing .i32)

variable [Facts₀]

abbrev win0_0 : Pipeline.Window sig grid0 :=
  Pipeline.Window.ofSpec (Memref.whole main_arg0) S1x2000x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2000x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2000x81.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x20000x85 : Shape := ⟨3, ![16, 20000, 85]⟩
abbrev S20000x4 : Shape := ⟨2, ![20000, 4]⟩
abbrev S16x20000x4 : Shape := ⟨3, ![16, 20000, 4]⟩
abbrev S16x20000x81 : Shape := ⟨3, ![16, 20000, 81]⟩
abbrev S1x20000x4 : Shape := ⟨3, ![1, 20000, 4]⟩
abbrev S1x20000x1 : Shape := ⟨3, ![1, 20000, 1]⟩
abbrev S1x20000 : Shape := ⟨2, ![1, 20000]⟩
abbrev S16x20000x1 : Shape := ⟨3, ![16, 20000, 1]⟩
abbrev S16x20000 : Shape := ⟨2, ![16, 20000]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S16x20000x85, .f32⟩
  | .hbm, ⟨1, _⟩ => ⟨S20000x4, .f32⟩
  | .hbm, ⟨2, _⟩ => ⟨S16x20000x4, .f32⟩
  | .hbm, ⟨3, _⟩ => ⟨S16x20000x81, .f32⟩
  | .hbm, ⟨4, _⟩ => ⟨S1x20000x4, .f32⟩
  | .hbm, ⟨5, _⟩ => ⟨S1x20000x1, .f32⟩
  | .hbm, ⟨6, _⟩ => ⟨S1x20000, .f32⟩
  | .hbm, ⟨7, _⟩ => ⟨S16x20000x1, .f32⟩
  | .hbm, ⟨8, _⟩ => ⟨S16x20000, .f32⟩
  | .hbm, ⟨9, _⟩ => ⟨S_, .f32⟩
  | .hbm, ⟨10, _⟩ => ⟨S16x20000, .f32⟩
  | .hbm, ⟨11, _⟩ => ⟨S16x20000, .f32⟩
  | .hbm, ⟨12, _⟩ => ⟨S1x20000x1, .f32⟩
  | .hbm, ⟨13, _⟩ => ⟨S1x20000, .f32⟩
  | .hbm, ⟨14, _⟩ => ⟨S16x20000, .f32⟩
  | .hbm, ⟨15, _⟩ => ⟨S16x20000, .f32⟩
  | .hbm, ⟨16, _⟩ => ⟨S16x20000, .f32⟩
  | .hbm, ⟨17, _⟩ => ⟨S16x20000, .f32⟩
  | .hbm, ⟨18, _⟩ => ⟨S1x20000x1, .f32⟩
  | .hbm, ⟨19, _⟩ => ⟨S1x20000, .f32⟩
  | .hbm, ⟨20, _⟩ => ⟨S16x20000x1, .f32⟩
  | .hbm, ⟨21, _⟩ => ⟨S16x20000, .f32⟩
  | .hbm, ⟨22, _⟩ => ⟨S_, .f32⟩
  | .hbm, ⟨23, _⟩ => ⟨S16x20000, .f32⟩
  | .hbm, ⟨24, _⟩ => ⟨S16x20000, .f32⟩
  | .hbm, ⟨25, _⟩ => ⟨S1x20000x1, .f32⟩
  | .hbm, ⟨26, _⟩ => ⟨S1x20000, .f32⟩
  | .hbm, ⟨27, _⟩ => ⟨S16x20000, .f32⟩
  | .hbm, ⟨28, _⟩ => ⟨S16x20000, .f32⟩
  | .hbm, ⟨29, _⟩ => ⟨S16x20000, .f32⟩
  | .hbm, ⟨30, _⟩ => ⟨S16x20000, .f32⟩
  | .hbm, ⟨31, _⟩ => ⟨S1x20000x1, .f32⟩
  | .hbm, ⟨32, _⟩ => ⟨S1x20000, .f32⟩
  | .hbm, ⟨33, _⟩ => ⟨S16x20000x1, .f32⟩
  | .hbm, ⟨34, _⟩ => ⟨S16x20000, .f32⟩
  | .hbm, ⟨35, _⟩ => ⟨S_, .f32⟩
  | .hbm, ⟨36, _⟩ => ⟨S16x20000, .f32⟩
  | .hbm, ⟨37, _⟩ => ⟨S16x20000, .f32⟩
  | .hbm, ⟨38, _⟩ => ⟨S16x20000, .f32⟩
  | .hbm, ⟨39, _⟩ => ⟨S16x20000, .f32⟩
  | .hbm, ⟨40, _⟩ => ⟨S16x20000, .f32⟩
  | .hbm, ⟨41, _⟩ => ⟨S1x20000x1, .f32⟩
  | .hbm, ⟨42, _⟩ => ⟨S1x20000, .f32⟩
  | .hbm, ⟨43, _⟩ => ⟨S16x20000x1, .f32⟩
  | .hbm, ⟨44, _⟩ => ⟨S16x20000, .f32⟩
  | .hbm, ⟨45, _⟩ => ⟨S_, .f32⟩
  | .hbm, ⟨46, _⟩ => ⟨S16x20000, .f32⟩
  | .hbm, ⟨47, _⟩ => ⟨S16x20000, .f32⟩
  | .hbm, ⟨48, _⟩ => ⟨S16x20000, .f32⟩
  | .hbm, ⟨49, _⟩ => ⟨S16x20000, .f32⟩
  | .hbm, ⟨50, _⟩ => ⟨S16x20000, .f32⟩
  | .hbm, ⟨51, _⟩ => ⟨S_, .f32⟩
  | .hbm, ⟨52, _⟩ => ⟨S16x20000, .f32⟩
  | .hbm, ⟨53, _⟩ => ⟨S16x20000, .f32⟩
  | .hbm, ⟨54, _⟩ => ⟨S16x20000, .f32⟩
  | .hbm, ⟨55, _⟩ => ⟨S_, .f32⟩
  | .hbm, ⟨56, _⟩ => ⟨S16x20000, .f32⟩
  | .hbm, ⟨57, _⟩ => ⟨S16x20000, .f32⟩
  | .hbm, ⟨58, _⟩ => ⟨S16x20000, .f32⟩
  | .hbm, ⟨59, _⟩ => ⟨S_, .f32⟩
  | .hbm, ⟨60, _⟩ => ⟨S16x20000, .f32⟩
  | .hbm, ⟨61, _⟩ => ⟨S16x20000, .f32⟩
  | .hbm, ⟨62, _⟩ => ⟨S16x20000, .f32⟩
  | .hbm, ⟨63, _⟩ => ⟨S_, .f32⟩
  | .hbm, ⟨64, _⟩ => ⟨S16x20000, .f32⟩
  | .hbm, ⟨65, _⟩ => ⟨S16x20000, .f32⟩
  | .hbm, ⟨66, _⟩ => ⟨S16x20000, .f32⟩
  | .hbm, ⟨67, _⟩ => ⟨S16x20000x1, .f32⟩
  | .hbm, ⟨68, _⟩ => ⟨S16x20000x1, .f32⟩
  | .hbm, ⟨69, _⟩ => ⟨S16x20000x1, .f32⟩
  | .hbm, ⟨70, _⟩ => ⟨S16x20000x1, .f32⟩
  | .hbm, ⟨71, _⟩ => ⟨S16x20000x4, .f32⟩
  | .hbm, ⟨72, _⟩ => ⟨S_, .f32⟩
  | .hbm, ⟨73, _⟩ => ⟨S16x20000x81, .f32⟩
  | .hbm, ⟨74, _⟩ => ⟨S16x20000x81, .i1⟩
  | _, _ => ⟨S16x20000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_1 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_4 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_5 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_6 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_7 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]

class Facts₀ : Prop where
  slices_S16x20000x85_S16x20000x4_0_0_0 : S16x20000x85.Slices ![0, 0, 0] S16x20000x4
  slices_S16x20000x85_S16x20000x81_0_0_4 : S16x20000x85.Slices ![0, 0, 4] S16x20000x81
  bcast_S20000x4_S1x20000x4_1_2 : S20000x4.BroadcastsInDim S1x20000x4 (![1, 2] : Fin 2 → Fin S1x20000x4.rank)
  slices_S1x20000x4_S1x20000x1_0_0_0 : S1x20000x4.Slices ![0, 0, 0] S1x20000x1
  shapeCasts_S1x20000x1_S1x20000 : S1x20000x1.ShapeCasts S1x20000
  slices_S16x20000x4_S16x20000x1_0_0_0 : S16x20000x4.Slices ![0, 0, 0] S16x20000x1
  shapeCasts_S16x20000x1_S16x20000 : S16x20000x1.ShapeCasts S16x20000
  bcast_S_S16x20000 : S_.BroadcastsInDim S16x20000 (![] : Fin 0 → Fin S16x20000.rank)
  slices_S1x20000x4_S1x20000x1_0_0_2 : S1x20000x4.Slices ![0, 0, 2] S1x20000x1
  bcast_S1x20000_S16x20000_0_1 : S1x20000.BroadcastsInDim S16x20000 (![0, 1] : Fin 2 → Fin S16x20000.rank)
  slices_S1x20000x4_S1x20000x1_0_0_1 : S1x20000x4.Slices ![0, 0, 1] S1x20000x1
  slices_S16x20000x4_S16x20000x1_0_0_1 : S16x20000x4.Slices ![0, 0, 1] S16x20000x1
  slices_S1x20000x4_S1x20000x1_0_0_3 : S1x20000x4.Slices ![0, 0, 3] S1x20000x1
  slices_S16x20000x4_S16x20000x1_0_0_2 : S16x20000x4.Slices ![0, 0, 2] S16x20000x1
  slices_S16x20000x4_S16x20000x1_0_0_3 : S16x20000x4.Slices ![0, 0, 3] S16x20000x1
  bcast_S16x20000_S16x20000x1_0_1 : S16x20000.BroadcastsInDim S16x20000x1 (![0, 1] : Fin 2 → Fin S16x20000x1.rank)
  concatenates_S16x20000x1_S16x20000x1_S16x20000x1_S16x20000x1_S16x20000x4_d2 : Shape.Concatenates [S16x20000x1, S16x20000x1, S16x20000x1, S16x20000x1] S16x20000x4 2
  bcast_S_S16x20000x81 : S_.BroadcastsInDim S16x20000x81 (![] : Fin 0 → Fin S16x20000x81.rank)

variable [Facts₀]

class Facts : Prop extends Facts₀ where

variable [Facts]
-- ==== Proof.BoxSpec.lean ====
/-
  Box decoding, stated once and index by index.

  A prior box is a row (cx, cy, w, h) of the prior table; a prediction row carries four regression offsets
  (p0, p1, p2, p3) followed by 81 class scores.  The decoded box has centre
      cx' = cx + (1/10 literal) * p0 * w,      cy' = cy + (1/10 literal) * p1 * h
  and half extents
      hw = (1/2) * w * exp ((1/5 literal) * p2),   hh = (1/2) * h * exp ((1/5 literal) * p3),
  and its four corner coordinates are cx' - hw, cy' - hh, cx' + hw, cy' + hh.  A class score is kept when it
  exceeds the threshold literal.  The literals 1/10, 1/5 and the threshold are carried as their binary words: the
  same word stands on both sides of every equation here, so their values never matter.  Only 1/2 and 2 are
  evaluated: they are exact dyadics, and multiplying by 1/2 before the exponential factor is dividing the product
  by 2 afterwards, on every extended real (commutativity and associativity of the product; division by a nonzero
  real is multiplication by its reciprocal, at the infinities too).
-/
import Idealize.ShloMosaic.PureOps.Ideal
import Idealize.ShloMosaic.Lib.ValueIdx

noncomputable section

namespace Cert.BoxSpec

open Idealize.ShloMosaic Idealize.ShloMosaic.ValueIdx

local notation "tenth" => (Ideal.ofBits FTy.f32 0x3DCCCCCD#32)
local notation "fifth" => (Ideal.ofBits FTy.f32 0x3E4CCCCD#32)
local notation "half" => (Ideal.ofBits FTy.f32 0x3F000000#32)
local notation "two" => (Ideal.ofBits FTy.f32 0x40000000#32)
local notation "thresh" => (Ideal.ofBits FTy.f32 0x3C23D70A#32)

/-! ## The two literals that are evaluated -/

/-- The word 0x3F000000 is the real 1/2. -/
theorem half_eq : half = ((1 / 2 : ℝ) : EReal) := by
  simp [Ideal.ofBits, Ideal.ieee, -EReal.coe_mul]; norm_num

/-- The word 0x40000000 is the real 2. -/
theorem two_eq : two = ((2 : ℝ) : EReal) := by
  simp [Ideal.ofBits, Ideal.ieee, -EReal.coe_mul]; norm_num

/-- Halving the extent before scaling it is halving the scaled extent: (1/2 · d) · e = (d · e) / 2 on the
    extended reals, with no finiteness needed. -/
theorem half_mul_mul_eq_div_two (d e : EReal) : half * d * e = Ideal.div (d * e) two := by
  rw [two_eq, Ideal.div_coe (by norm_num : (2 : ℝ) ≠ 0), half_eq, mul_comm (((1 / 2 : ℝ) : EReal)) d, mul_assoc,
    mul_comm (((1 / 2 : ℝ) : EReal)) e, ← mul_assoc]

/-! ## One box -/

/-- Corner coordinate `k` (xmin, ymin, xmax, ymax) of the box decoded from a prediction row `P` and a prior
    row `D`. -/
def corner (P : Fin 85 → EReal) (D : Fin 4 → EReal) : Fin 4 → EReal
  | ⟨0, _⟩ => (D 0 + tenth * P 0 * D 2) - half * D 2 * Ideal.exp (fifth * P 2)
  | ⟨1, _⟩ => (D 1 + tenth * P 1 * D 3) - half * D 3 * Ideal.exp (fifth * P 3)
  | ⟨2, _⟩ => (D 0 + tenth * P 0 * D 2) + half * D 2 * Ideal.exp (fifth * P 2)
  | ⟨3, _⟩ => (D 1 + tenth * P 1 * D 3) + half * D 3 * Ideal.exp (fifth * P 3)

/-- The same coordinate with the extent scaled first and halved by a division afterwards. -/
def cornerDiv (P : Fin 85 → EReal) (D : Fin 4 → EReal) : Fin 4 → EReal
  | ⟨0, _⟩ => (D 0 + tenth * P 0 * D 2) - Ideal.div (D 2 * Ideal.exp (fifth * P 2)) two
  | ⟨1, _⟩ => (D 1 + tenth * P 1 * D 3) - Ideal.div (D 3 * Ideal.exp (fifth * P 3)) two
  | ⟨2, _⟩ => (D 0 + tenth * P 0 * D 2) + Ideal.div (D 2 * Ideal.exp (fifth * P 2)) two
  | ⟨3, _⟩ => (D 1 + tenth * P 1 * D 3) + Ideal.div (D 3 * Ideal.exp (fifth * P 3)) two

/-- The two spellings agree, coordinate by coordinate. -/
theorem cornerDiv_eq (P : Fin 85 → EReal) (D : Fin 4 → EReal) (k : Fin 4) : cornerDiv P D k = corner P D k := by
  match k with
  | ⟨0, _⟩ => show _ - _ = _ - _; rw [half_mul_mul_eq_div_two]
  | ⟨1, _⟩ => show _ - _ = _ - _; rw [half_mul_mul_eq_div_two]
  | ⟨2, _⟩ => show _ + _ = _ + _; rw [half_mul_mul_eq_div_two]
  | ⟨3, _⟩ => show _ + _ = _ + _; rw [half_mul_mul_eq_div_two]

/-- The column of the prediction row that holds class score `k`: the scores follow the four offsets. -/
def scoreCol (k : Fin 81) : Fin 85 := ⟨4 + k.val, by omega⟩

/-! ## The whole arrays -/

/-- Every box's corners: entry (b, n, k) is corner `k` of the box decoded from prediction row (b, n) and prior
    row n. -/
def corners (P : (⟨3, ![16, 20000, 85]⟩ : Shape).Idx → EReal) (D : (⟨2, ![20000, 4]⟩ : Shape).Idx → EReal) :
    (⟨3, ![16, 20000, 4]⟩ : Shape).Idx → EReal :=
  fun i => corner (fun q => P (ix3 (i 0) (i 1) q)) (fun q => D (ix2 (i 1) q)) (i 2)

theorem corners_apply (P : (⟨3, ![16, 20000, 85]⟩ : Shape).Idx → EReal) (D : (⟨2, ![20000, 4]⟩ : Shape).Idx → EReal)
    (b : Fin 16) (n : Fin 20000) (k : Fin 4) :
    corners P D (ix3 b n k) = corner (fun q => P (ix3 b n q)) (fun q => D (ix2 n q)) k := rfl

/-- Which class scores pass the threshold: entry (b, n, k) compares score `k` of prediction row (b, n) with
    the threshold literal (ordered greater-than, as one bit). -/
def confident (P : (⟨3, ![16, 20000, 85]⟩ : Shape).Idx → EReal) : (⟨3, ![16, 20000, 81]⟩ : Shape).Idx → BitVec 1 :=
  fun i => FloatOps.cmpf (F := Ideal) (φ := .f32) .ogt (P (ix3 (i 0) (i 1) (scoreCol (i 2)))) thresh

theorem confident_apply (P : (⟨3, ![16, 20000, 85]⟩ : Shape).Idx → EReal) (b : Fin 16) (n : Fin 20000) (k : Fin 81) :
    confident P (ix3 b n k) = FloatOps.cmpf (F := Ideal) (φ := .f32) .ogt (P (ix3 b n (scoreCol k))) thresh := rfl

end Cert.BoxSpec

end
-- ==== Proof.BoxPayload.lean ====
/-
  What the kernel's body computes from one grid point's blocks, read entry by entry.

  The body sees a block of 2000 prediction rows (as a [1, 2000, 85] array) and the matching 2000 prior rows
  ([2000, 4]).  Every value it forms is a column of one of these, combined entry by entry, so the stored corner
  block at (0, r, k) is corner `k` of the box decoded from prediction row r and prior row r of the blocks
  (`Cert.BoxSpec.corner`), and the stored mask block at (0, r, k) is the one-bit comparison of score `k` of
  row r with the threshold, widened to a 32-bit word.  The only non-pointwise steps are layout: dropping or adding
  the leading unit axis, cutting a column (or the 81 score columns) out of a block, and laying four columns side
  by side.
-/
import proofs.«167822_g20529943675129_cont_sun_c4_269_3_alg».proof.Proof.Gen.KernelIdeal.Skeleton
import proofs.«167822_g20529943675129_cont_sun_c4_269_3_alg».proof.Proof.BoxSpec
import Idealize.ShloMosaic.Lib.Pipeline.Value
import Idealize.ShloMosaic.Lib.ValueIdx

noncomputable section

namespace Cert.KernelIdeal.BoxValue

open Cert.KernelIdeal Cert.KernelIdeal.Gen Idealize.ShloMosaic Idealize.ShloMosaic.ValueIdx

variable {α : Type}

/-! ## Columns of the two blocks -/

/-- A one-column slice of the prior block at row r is the block's entry in that column. -/
theorem priorCol (x1 : S2000x4.Idx → α) (off : Fin 2 → Nat) (h : S2000x4.Slices off S2000x1) (c : Fin 4)
    (h0 : off 0 = 0) (h1 : off 1 = c.val) (r : Fin 2000) (z : Fin 1) :
    extractStridedSlice S2000x1 off x1 h (ix2 r z) = x1 (ix2 r c) :=
  extractStridedSlice_apply off x1 h (ix2 r z) (ix2 r c) (fun a => match a with
    | ⟨0, _⟩ => by show r.val = off 0 + r.val; omega
    | ⟨1, _⟩ => by show c.val = off 1 + z.val; have := z.isLt; omega)

/-- The prediction block with its leading unit axis dropped, read at (r, c), is the block at (0, r, c). -/
theorem predRow (x0 : S1x2000x85.Idx → α) (hc : S1x2000x85.ShapeCasts S2000x85) (r : Fin 2000) (c : Fin 85) :
    shapeCast S2000x85 x0 hc (ix2 r c) = x0 (ix3 0 r c) := by
  refine (shapeCast_dropUnit_apply ![2000, 85] x0 hc (ix2 r c)).trans ?_
  exact congrArg x0 (funext fun a => match a with | ⟨0, _⟩ => rfl | ⟨1, _⟩ => rfl | ⟨2, _⟩ => rfl)

/-- A one-column slice of the prediction block (unit axis dropped) at row r is the block's entry in that column. -/
theorem predCol (x0 : S1x2000x85.Idx → α) (hc : S1x2000x85.ShapeCasts S2000x85) (off : Fin 2 → Nat)
    (h : S2000x85.Slices off S2000x1) (c : Fin 85) (h0 : off 0 = 0) (h1 : off 1 = c.val) (r : Fin 2000) (z : Fin 1) :
    extractStridedSlice S2000x1 off (shapeCast S2000x85 x0 hc) h (ix2 r z) = x0 (ix3 0 r c) := by
  refine (extractStridedSlice_apply off _ h (ix2 r z) (ix2 r c) (fun a => match a with
    | ⟨0, _⟩ => by show r.val = off 0 + r.val; omega
    | ⟨1, _⟩ => by show c.val = off 1 + z.val; have := z.isLt; omega)).trans ?_
  exact predRow x0 hc r c

/-- The 81 score columns of the prediction block at (r, k) are the block's entry in column 4 + k. -/
theorem scoreCols (x0 : S1x2000x85.Idx → α) (hc : S1x2000x85.ShapeCasts S2000x85) (off : Fin 2 → Nat)
    (h : S2000x85.Slices off S2000x81) (h0 : off 0 = 0) (h1 : off 1 = 4) (r : Fin 2000) (k : Fin 81) :
    extractStridedSlice S2000x81 off (shapeCast S2000x85 x0 hc) h (ix2 r k) = x0 (ix3 0 r (Cert.BoxSpec.scoreCol k)) := by
  refine (extractStridedSlice_apply off _ h (ix2 r k) (ix2 r (Cert.BoxSpec.scoreCol k)) (fun a => match a with
    | ⟨0, _⟩ => by show r.val = off 0 + r.val; omega
    | ⟨1, _⟩ => by show 4 + k.val = off 1 + k.val; omega)).trans ?_
  exact predRow x0 hc r _

/-- Four columns laid side by side, read at (r, k), give column `k` at row r. -/
theorem fourCols (v0 v1 v2 v3 : S2000x1.Idx → α)
    (h : Shape.Concatenates [S2000x1, S2000x1, S2000x1, S2000x1] S2000x4 1) (r : Fin 2000) (k : Fin 4) :
    concatenate S2000x4 1 [⟨S2000x1, v0⟩, ⟨S2000x1, v1⟩, ⟨S2000x1, v2⟩, ⟨S2000x1, v3⟩] h (ix2 r k)
      = (match k with | ⟨0, _⟩ => v0 | ⟨1, _⟩ => v1 | ⟨2, _⟩ => v2 | ⟨3, _⟩ => v3) (ix2 r 0) := by
  have hi : ∀ b : Fin S2000x1.rank, b.cast (rfl : S2000x1.rank = S2000x4.rank) ≠ (1 : Fin S2000x4.rank) →
      ((ix2 r (0 : Fin 1) : S2000x1.Idx) b).val = ((ix2 r k : S2000x4.Idx) (b.cast rfl)).val := fun b hb => by
    match b with
    | ⟨0, _⟩ => rfl
    | ⟨1, _⟩ => exact absurd rfl hb
  match k with
  | ⟨0, _⟩ => exact concatenate_apply_piece 1 [⟨S2000x1, v0⟩, ⟨S2000x1, v1⟩, ⟨S2000x1, v2⟩, ⟨S2000x1, v3⟩] h (ix2 r _) 0 (by simp) S2000x1 v0 rfl rfl 0 rfl (ix2 r 0) hi rfl
  | ⟨1, _⟩ => exact concatenate_apply_piece 1 [⟨S2000x1, v0⟩, ⟨S2000x1, v1⟩, ⟨S2000x1, v2⟩, ⟨S2000x1, v3⟩] h (ix2 r _) 1 (by simp) S2000x1 v1 rfl rfl 1 rfl (ix2 r 0) hi rfl
  | ⟨2, _⟩ => exact concatenate_apply_piece 1 [⟨S2000x1, v0⟩, ⟨S2000x1, v1⟩, ⟨S2000x1, v2⟩, ⟨S2000x1, v3⟩] h (ix2 r _) 2 (by simp) S2000x1 v2 rfl rfl 2 rfl (ix2 r 0) hi rfl
  | ⟨3, _⟩ => exact concatenate_apply_piece 1 [⟨S2000x1, v0⟩, ⟨S2000x1, v1⟩, ⟨S2000x1, v2⟩, ⟨S2000x1, v3⟩] h (ix2 r _) 3 (by simp) S2000x1 v3 rfl rfl 3 rfl (ix2 r 0) hi rfl

/-- A [2000, w] value stored as a [1, 2000, w] block reads, at (u, r, k), the value at (r, k). -/
theorem unitBlock {w : Nat} (v : (⟨2, ![2000, w]⟩ : Shape).Idx → α)
    (h : (⟨2, ![2000, w]⟩ : Shape).ShapeCasts ⟨3, ![1, 2000, w]⟩) (u : Fin 1) (r : Fin 2000) (k : Fin w) :
    shapeCast ⟨3, ![1, 2000, w]⟩ v h (ix3 u r k) = v (ix2 r k) := by
  refine (shapeCast_addUnit_apply ![2000, w] v h (ix3 u r k)).trans ?_
  exact congrArg v (funext fun a => match a with | ⟨0, _⟩ => rfl | ⟨1, _⟩ => rfl)

/-! ## The two stored blocks -/

/-- The entrywise exponential at an index. -/
theorem exp_apply {s : Shape} {φ : FTy} (a : FVec Ideal s φ) (i : s.Idx) : exp a i = Ideal.exp (a i) := rfl

/-- THE CORNER BLOCK: what the body stores in the corner window's buffer, at (u, r, k), is corner `k` of the box
    decoded from row r of the prediction block and row r of the prior block. -/
theorem cornerBlock (x0 : Vec Ideal S1x2000x85 .f32) (x1 : Vec Ideal S2000x4 .f32) (u : Fin 1) (r : Fin 2000) (k : Fin 4) :
    k0_pay3 (F := Ideal) x0 x1 (ix3 u r k)
      = Cert.BoxSpec.corner (fun q => x0 (ix3 0 r q)) (fun q => x1 (ix2 r q)) k := by
  unfold k0_pay3 k0_pay2
  refine (unitBlock _ _ u r k).trans ?_
  refine (fourCols _ _ _ _ _ r k).trans ?_
  match k with
  | ⟨0, _⟩ =>
    simp only [subf_apply, addf_apply, mulf_apply, exp_apply, broadcast_apply,
      priorCol x1 ![0, 0] _ 0 rfl rfl, priorCol x1 ![0, 2] _ 2 rfl rfl,
      predCol x0 _ ![0, 0] _ 0 rfl rfl, predCol x0 _ ![0, 2] _ 2 rfl rfl]
    rfl
  | ⟨1, _⟩ =>
    simp only [subf_apply, addf_apply, mulf_apply, exp_apply, broadcast_apply,
      priorCol x1 ![0, 1] _ 1 rfl rfl, priorCol x1 ![0, 3] _ 3 rfl rfl,
      predCol x0 _ ![0, 1] _ 1 rfl rfl, predCol x0 _ ![0, 3] _ 3 rfl rfl]
    rfl
  | ⟨2, _⟩ =>
    simp only [subf_apply, addf_apply, mulf_apply, exp_apply, broadcast_apply,
      priorCol x1 ![0, 0] _ 0 rfl rfl, priorCol x1 ![0, 2] _ 2 rfl rfl,
      predCol x0 _ ![0, 0] _ 0 rfl rfl, predCol x0 _ ![0, 2] _ 2 rfl rfl]
    rfl
  | ⟨3, _⟩ =>
    simp only [subf_apply, addf_apply, mulf_apply, exp_apply, broadcast_apply,
      priorCol x1 ![0, 1] _ 1 rfl rfl, priorCol x1 ![0, 3] _ 3 rfl rfl,
      predCol x0 _ ![0, 1] _ 1 rfl rfl, predCol x0 _ ![0, 3] _ 3 rfl rfl]
    rfl

/-- THE MASK BLOCK: what the body stores in the mask window's buffer, at (u, r, k), is the one-bit comparison of
    score `k` of row r of the prediction block with the threshold, widened to 32 bits. -/
theorem maskBlock (x0 : Vec Ideal S1x2000x85 .f32) (u : Fin 1) (r : Fin 2000) (k : Fin 81) :
    k0_pay1 (k0_pay4 (F := Ideal) x0) (ix3 u r k)
      = (FloatOps.cmpf (F := Ideal) (φ := .f32) .ogt (x0 (ix3 0 r (Cert.BoxSpec.scoreCol k)))
          (Ideal.ofBits .f32 0x3C23D70A#32)).setWidth 32 := by
  unfold k0_pay1 k0_pay4 k0_pay2
  refine (unitBlock _ _ u r k).trans ?_
  simp only [extui_apply, cmpf_apply, broadcast_apply, scoreCols x0 _ ![0, 4] _ rfl rfl]
  rfl

end Cert.KernelIdeal.BoxValue

end
-- ==== Proof.BoxArrays.lean ====
/-
  From one grid point's blocks to the whole output arrays.

  The grid has 10 × 16 points; at point (j, b) the prediction window holds rows 2000·j … 2000·j + 1999 of batch b,
  the prior window rows 2000·j … 2000·j + 1999 of the prior table, and the two output windows the same rows of
  batch b of the corner array and of the mask array.  So what a point writes back is a block of ONE function of
  the whole argument arrays — `Cert.BoxSpec.corners` for the corner window, the widened `Cert.BoxSpec.confident`
  bits for the mask window — and since the 160 blocks tile each output array, each array ends as that function.
-/
import proofs.«167822_g20529943675129_cont_sun_c4_269_3_alg».proof.Proof.Gen.KernelIdeal.Frame
import proofs.«167822_g20529943675129_cont_sun_c4_269_3_alg».proof.Proof.BoxPayload
import Idealize.ShloMosaic.Lib.Pipeline.Value

noncomputable section

namespace Cert.KernelIdeal.BoxValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The mask array as the kernel holds it: each kept-score bit widened to a 32-bit word. -/
def maskWords (P : S16x20000x85.Idx → EReal) : S16x20000x81.Idx → BitVec 32 :=
  fun i => (Cert.BoxSpec.confident P i).setWidth 32

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## Where each window's block sits at a grid point -/

/-- The four index maps, decided over the 160 points: the prediction window and both output windows sit at the
    same (batch, row-block) position, the prior window at the same row-block; the last axis is never cut. -/
theorem blockPositions : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = win0_2.index t (1 : Fin 3)
    ∧ win0_1.index t (1 : Fin 2) = 0
    ∧ win0_3.index t (0 : Fin 3) = win0_2.index t (0 : Fin 3)
    ∧ win0_3.index t (1 : Fin 3) = win0_2.index t (1 : Fin 3)
    ∧ win0_3.index t (2 : Fin 3) = 0
    ∧ win0_2.index t (2 : Fin 3) = 0
    ∧ win0_2.index t (0 : Fin 3) ≤ 15 ∧ win0_2.index t (1 : Fin 3) ≤ 9 :=
  (by decide +kernel : ∀ t : Fin grid0.N, _)

/-- Every (batch, row-block) position is some point's. -/
theorem positionsOnto : ∀ (q0 : Fin 16) (q1 : Fin 10), ∃ t : Fin cfg0.N, win0_2.index t = ![q0.val, q1.val, 0] :=
  (by decide +kernel : ∀ (q0 : Fin 16) (q1 : Fin 10), ∃ t : Fin grid0.N, win0_2.index t = ![q0.val, q1.val, 0])

/-! ## The input blocks, read where the output's block says -/

/-- The prediction block at point `t`, entry (0, r, q), is the prediction array at the point's batch, at the
    block's row r, column q. -/
theorem predBlock (c : Dev nD) (t : Fin cfg0.N) (r : Fin 2000) (q : Fin 85) (B : Fin 16) (n : Fin 20000)
    (hB : B.val = win0_2.index t (0 : Fin 3)) (hn : n.val = win0_2.index t (1 : Fin 3) * 2000 + r.val) :
    iblk m c 0 t (ix3 0 r q) = V m c main_arg0 (ix3 B n q) := by
  obtain ⟨e0, e1, e2, -⟩ := blockPositions t
  show V m c main_arg0 (((cfg0.win 0).blk t).view.emb (ix3 0 r q)) = V m c main_arg0 (ix3 B n q)
  refine congrArg (V m c main_arg0) (funext fun a => Fin.ext ?_)
  match a with
  | ⟨0, _⟩ => show win0_0.index t (0 : Fin 3) * 1 + 1 * 0 = B.val; omega
  | ⟨1, _⟩ => show win0_0.index t (1 : Fin 3) * 2000 + 1 * r.val = n.val; omega
  | ⟨2, _⟩ => show win0_0.index t (2 : Fin 3) * 85 + 1 * q.val = q.val; omega

/-- The prior block at point `t`, entry (r, q), is the prior table at the block's row r, column q. -/
theorem priorBlock (c : Dev nD) (t : Fin cfg0.N) (r : Fin 2000) (q : Fin 4) (n : Fin 20000)
    (hn : n.val = win0_2.index t (1 : Fin 3) * 2000 + r.val) :
    iblk m c 1 t (ix2 r q) = V m c main_arg1 (ix2 n q) := by
  obtain ⟨-, -, -, e3, e4, -⟩ := blockPositions t
  show V m c main_arg1 (((cfg0.win 1).blk t).view.emb (ix2 r q)) = V m c main_arg1 (ix2 n q)
  refine congrArg (V m c main_arg1) (funext fun a => Fin.ext ?_)
  match a with
  | ⟨0, _⟩ => show win0_1.index t (0 : Fin 2) * 2000 + 1 * r.val = n.val; omega
  | ⟨1, _⟩ => show win0_1.index t (1 : Fin 2) * 4 + 1 * q.val = q.val; omega

/-! ## What a point writes back -/

/-- Point `t` writes back block `t` of the decoded corners of the argument arrays. -/
theorem flushedCorners (c : Dev nD) (t : Fin cfg0.N) :
    (dats m 0 c).flushed 2 t
      = ((cfg0.win 2).blk t).view.read (Elt Ideal) (Cert.BoxSpec.corners (V m c main_arg0) (V m c main_arg1)) := by
  show (cfg0.win 2).cut (grid0.coords t) ((dats m 0 c).after 2 t) = _
  rw [after0_2]
  unfold out0_2
  rw [View.canon_unit_zero zeros3]
  simp only [View.ld_unit_zero (S := S1x2000x85) zeros3, View.ld_unit_zero (S := S2000x4) zeros2]
  obtain ⟨-, -, -, -, -, -, -, -, e8, e9, e10⟩ := blockPositions t
  funext j
  obtain ⟨u, r, k, rfl⟩ : ∃ (u : Fin 1) (r : Fin 2000) (k : Fin 4), j = ix3 u r k := ⟨j 0, j 1, j 2, eq_ix3 j⟩
  have hu : u.val = 0 := by have := u.isLt; omega
  let B : Fin 16 := ⟨win0_2.index t (0 : Fin 3), by omega⟩
  let n : Fin 20000 := ⟨win0_2.index t (1 : Fin 3) * 2000 + r.val, by have := r.isLt; omega⟩
  have hemb : ((cfg0.win 2).blk t).view.emb (ix3 u r k) = ix3 B n k := by
    funext a; apply Fin.ext
    match a with
    | ⟨0, _⟩ => show win0_2.index t (0 : Fin 3) * 1 + 1 * u.val = win0_2.index t (0 : Fin 3); omega
    | ⟨1, _⟩ => show win0_2.index t (1 : Fin 3) * 2000 + 1 * r.val = win0_2.index t (1 : Fin 3) * 2000 + r.val; omega
    | ⟨2, _⟩ => show win0_2.index t (2 : Fin 3) * 4 + 1 * k.val = k.val; omega
  show k0_pay3 (iblk m c 0 t) (iblk m c 1 t) (ix3 u r k)
    = Cert.BoxSpec.corners (V m c main_arg0) (V m c main_arg1) (((cfg0.win 2).blk t).view.emb (ix3 u r k))
  rw [hemb, Cert.BoxSpec.corners_apply]
  refine (cornerBlock (iblk m c 0 t) (iblk m c 1 t) u r k).trans ?_
  have hP : (fun q : Fin 85 => iblk m c 0 t (ix3 0 r q)) = fun q => V m c main_arg0 (ix3 B n q) :=
    funext fun q => predBlock m c t r q B n rfl rfl
  have hD : (fun q : Fin 4 => iblk m c 1 t (ix2 r q)) = fun q => V m c main_arg1 (ix2 n q) :=
    funext fun q => priorBlock m c t r q n rfl
  rw [hP, hD]

/-- Point `t` writes back block `t` of the widened kept-score bits of the prediction array. -/
theorem flushedMask (c : Dev nD) (t : Fin cfg0.N) :
    (dats m 0 c).flushed 3 t = ((cfg0.win 3).blk t).view.read (Elt Ideal) (maskWords (V m c main_arg0)) := by
  show (cfg0.win 3).cut (grid0.coords t) ((dats m 0 c).after 3 t) = _
  rw [after0_3]
  unfold out0_3
  rw [View.canon_unit_zero zeros3]
  simp only [View.ld_unit_zero (S := S1x2000x85) zeros3]
  obtain ⟨-, -, -, -, -, e5, e6, e7, -, e9, e10⟩ := blockPositions t
  funext j
  obtain ⟨u, r, k, rfl⟩ : ∃ (u : Fin 1) (r : Fin 2000) (k : Fin 81), j = ix3 u r k := ⟨j 0, j 1, j 2, eq_ix3 j⟩
  have hu : u.val = 0 := by have := u.isLt; omega
  let B : Fin 16 := ⟨win0_2.index t (0 : Fin 3), by omega⟩
  let n : Fin 20000 := ⟨win0_2.index t (1 : Fin 3) * 2000 + r.val, by have := r.isLt; omega⟩
  have hemb : ((cfg0.win 3).blk t).view.emb (ix3 u r k) = ix3 B n k := by
    funext a; apply Fin.ext
    match a with
    | ⟨0, _⟩ => show win0_3.index t (0 : Fin 3) * 1 + 1 * u.val = win0_2.index t (0 : Fin 3); omega
    | ⟨1, _⟩ => show win0_3.index t (1 : Fin 3) * 2000 + 1 * r.val = win0_2.index t (1 : Fin 3) * 2000 + r.val; omega
    | ⟨2, _⟩ => show win0_3.index t (2 : Fin 3) * 81 + 1 * k.val = k.val; omega
  show k0_pay1 (k0_pay4 (iblk m c 0 t)) (ix3 u r k)
    = maskWords (V m c main_arg0) (((cfg0.win 3).blk t).view.emb (ix3 u r k))
  rw [hemb]
  refine (maskBlock (iblk m c 0 t) u r k).trans ?_
  rw [predBlock m c t r (Cert.BoxSpec.scoreCol k) B n rfl rfl]
  rfl

/-! ## The blocks tile the arrays -/

/-- An index of the corner array is in point `t`'s block iff each coordinate is in the block's range. -/
theorem mem_cornerBlock (t : Fin cfg0.N) (i : S16x20000x4.Idx) :
    i ∈ ((cfg0.win 2).blk t).view.set ↔ ∀ a : Fin 3, win0_2.index t a * S1x2000x4.size a ≤ (i a).val
      ∧ (i a).val < win0_2.index t a * S1x2000x4.size a + S1x2000x4.size a := by
  show i ∈ ((View.whole main_v0_0).slice (win0_2.rect t)).set ↔ _
  rw [View.set_slice_whole, Rect.mem_set_unit]
  exact Iff.rfl

/-- An index of the mask array is in point `t`'s block iff each coordinate is in the block's range. -/
theorem mem_maskBlock (t : Fin cfg0.N) (i : S16x20000x81.Idx) :
    i ∈ ((cfg0.win 3).blk t).view.set ↔ ∀ a : Fin 3, win0_3.index t a * S1x2000x81.size a ≤ (i a).val
      ∧ (i a).val < win0_3.index t a * S1x2000x81.size a + S1x2000x81.size a := by
  show i ∈ ((View.whole main_v0_1).slice (win0_3.rect t)).set ↔ _
  rw [View.set_slice_whole, Rect.mem_set_unit]
  exact Iff.rfl

/-- Every entry of the corner array is written by the point of its batch and row-block. -/
theorem coverCorners (i : S16x20000x4.Idx) :
    ∃ t : Fin cfg0.N, (cfg0.win 2).flush t = true ∧ i ∈ ((cfg0.win 2).blk t).view.set := by
  have hi0 : (i 0).val < 16 := (i 0).isLt
  have hi1 : (i 1).val < 20000 := (i 1).isLt
  have hi2 : (i 2).val < 4 := (i 2).isLt
  obtain ⟨t, ht⟩ := positionsOnto ⟨(i 0).val, hi0⟩ ⟨(i 1).val / 2000, by omega⟩
  have q0 : win0_2.index t (0 : Fin 3) = (i 0).val := congrFun ht 0
  have q1 : win0_2.index t (1 : Fin 3) = (i 1).val / 2000 := congrFun ht 1
  have q2 : win0_2.index t (2 : Fin 3) = 0 := congrFun ht 2
  refine ⟨t, flush0_2 t, ?_⟩
  rw [mem_cornerBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 4 ≤ (i 2).val ∧ (i 2).val < win0_2.index t (2 : Fin 3) * 4 + 4; omega

/-- Every entry of the mask array is written by the point of its batch and row-block. -/
theorem coverMask (i : S16x20000x81.Idx) :
    ∃ t : Fin cfg0.N, (cfg0.win 3).flush t = true ∧ i ∈ ((cfg0.win 3).blk t).view.set := by
  have hi0 : (i 0).val < 16 := (i 0).isLt
  have hi1 : (i 1).val < 20000 := (i 1).isLt
  have hi2 : (i 2).val < 81 := (i 2).isLt
  obtain ⟨t, ht⟩ := positionsOnto ⟨(i 0).val, hi0⟩ ⟨(i 1).val / 2000, by omega⟩
  obtain ⟨-, -, -, -, -, e5, e6, e7, -⟩ := blockPositions t
  have q0 : win0_2.index t (0 : Fin 3) = (i 0).val := congrFun ht 0
  have q1 : win0_2.index t (1 : Fin 3) = (i 1).val / 2000 := congrFun ht 1
  refine ⟨t, flush0_3 t, ?_⟩
  rw [mem_maskBlock]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 81 ≤ (i 2).val ∧ (i 2).val < win0_3.index t (2 : Fin 3) * 81 + 81; omega

/-! ## The arrays after the region -/

/-- The corner array after the region is the decoded corners of the argument arrays. -/
theorem finalCorners (c : Dev nD) :
    (dats m 0 c).arrAt 2 cfg0.N = Cert.BoxSpec.corners (V m c main_arg0) (V m c main_arg1) :=
  (dats m 0 c).arrAt_eq_of_cover 2 _ (fun t _ => flushedCorners m c t) coverCorners

/-- The mask array after the region holds the widened kept-score bits of the prediction array. -/
theorem finalMask (c : Dev nD) : (dats m 0 c).arrAt 3 cfg0.N = maskWords (V m c main_arg0) :=
  (dats m 0 c).arrAt_eq_of_cover 3 _ (fun t _ => flushedMask m c t) coverMask

end Cert.KernelIdeal.BoxValue

end
-- ==== Proof.BoxRun.lean ====
/-
  The kernel program's run, read as values.

  After the region the corner array holds the decoded corners (`finalCorners`) and is the program's first result
  as it stands.  The mask array holds each kept-score bit widened to a 32-bit word; the program's second result is
  that array compared, word by word, against zero ("not equal").  A one-bit value widened to 32 bits is nonzero
  exactly when the bit is set, so the comparison gives the bit back: the second result is the kept-score bits
  themselves (`Cert.BoxSpec.confident`).
-/
import proofs.«167822_g20529943675129_cont_sun_c4_269_3_alg».proof.Proof.Gen.KernelIdeal.Frame
import proofs.«167822_g20529943675129_cont_sun_c4_269_3_alg».proof.Proof.BoxArrays
import Idealize.ShloMosaic.Lib.StableHlo.Run

noncomputable section

namespace Cert.KernelIdeal.BoxValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- A bit widened to a 32-bit word differs from zero exactly when the bit is set. -/
theorem widened_ne_zero (b : BitVec 1) : IntOp.cmpi .ne (b.setWidth 32) 0#32 = b := by
  rcases BitVec.eq_zero_or_eq_one b with h | h <;> subst h <;> decide

/-- The lines after the region leave, in the second result, the kept-score bits of the prediction array. -/
theorem tailMask (c : Dev nD) :
    Pipeline.afterTail₀ cfgs (dats m) 0 (V0 m) [hostOps1] c main_v3
      = Cert.BoxSpec.confident (m ((c.tc : Thread nD τ).loc main_arg0)) := by
  have e : Pipeline.withArrays spec0 c (V0 m c) (fun w => (dats m 0 c).arrAt w cfg0.N) (Proc.devRef .tc main_v0_1)
      = maskWords (m ((c.tc : Thread nD τ).loc main_arg0)) :=
    (Pipeline.withArrays_arr spec0 launch0.win.arr_inj c _ _ 3).trans (finalMask m c)
  unfold Pipeline.afterTail₀
  show StableHlo.after hostOps1 _ (Proc.devRef .tc main_v3) = _
  after_results
  rw [e]
  funext i
  exact widened_ne_zero _

/-- THE KERNEL PROGRAM'S RUN: every weakly fair execution terminates with the first result at the decoded corners
    of the argument arrays, the second at the kept-score bits of the prediction array, the arguments unchanged. -/
theorem run : θ_run defs (onTc (τ := τ) (main (F := Ideal))) ⟨m, fun _ => 0, ρ⟩ fun r => ∀ c : Dev nD,
      r.2.mem ((c.tc : Thread nD τ).loc main_v0_0)
          = Cert.BoxSpec.corners (m ((c.tc : Thread nD τ).loc main_arg0)) (m ((c.tc : Thread nD τ).loc main_arg1))
      ∧ r.2.mem ((c.tc : Thread nD τ).loc main_v3) = Cert.BoxSpec.confident (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (finalCorners m c),
      ((h c).2 main_v3 (Pipeline.mem_restRefs_of main_v3 rfl (by decide))).trans (tailMask m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.BoxValue

end
-- ==== Proof.RefBox.lean ====
/-
  The reference program, read entry by entry.

  The reference slices the four offset columns and the four prior columns out of its arguments, broadcasts the
  prior columns over the 16 batches, forms the centre d_c + (1/10 literal)·p·d_e and the extent d_e·exp((1/5 literal)·p),
  halves the extent by DIVIDING by 2, and joins centre ∓ half-extent as four [16, 20000, 1] slabs.  Read at
  (b, n, k) this is `Cert.BoxSpec.cornerDiv` of prediction row (b, n) and prior row n — which is the kernel's
  `Cert.BoxSpec.corner` (`cornerDiv_eq`).  Its second result compares the 81 score columns with the threshold:
  `Cert.BoxSpec.confident`.
-/
import proofs.«167822_g20529943675129_cont_sun_c4_269_3_alg».proof.Proof.Gen.ReferenceIdeal.Read
import proofs.«167822_g20529943675129_cont_sun_c4_269_3_alg».proof.Proof.BoxSpec
import Idealize.ShloMosaic.Lib.Pipeline.Value
import Idealize.ShloMosaic.Lib.ValueIdx

noncomputable section

namespace Cert.ReferenceIdeal.BoxValue

open Cert.ReferenceIdeal Cert.ReferenceIdeal.Read Idealize.ShloMosaic Idealize.ShloMosaic.ValueIdx

variable (x0 : (⟨S16x20000x85, .f32⟩ : BufTy).Contents (Elt Ideal)) (x1 : (⟨S20000x4, .f32⟩ : BufTy).Contents (Elt Ideal))

local notation "tenth" => (Ideal.ofBits FTy.f32 0x3DCCCCCD#32)
local notation "fifth" => (Ideal.ofBits FTy.f32 0x3E4CCCCD#32)
local notation "two" => (Ideal.ofBits FTy.f32 0x40000000#32)

/-! ## The prior columns, broadcast over the batches -/

/-- Prior centre x (column 0), at (b, n). -/
theorem priorCx (b : Fin 16) (n : Fin 20000) : val_main_v13 (F := Ideal) x1 (ix2 b n) = x1 (ix2 n 0) := by
  rw [val_main_v13_apply, val_main_v4_apply, val_main_v3_apply, val_main_v2_apply]
  have hn := n.isLt
  exact congrArg x1 (funext fun a => Fin.ext (by
    match a with
    | ⟨0, _⟩ => show (0 * 20000 + n.val) / 1 % 20000 = n.val; omega
    | ⟨1, _⟩ => rfl))

/-- Prior centre y (column 1), at (b, n). -/
theorem priorCy (b : Fin 16) (n : Fin 20000) : val_main_v25 (F := Ideal) x1 (ix2 b n) = x1 (ix2 n 1) := by
  rw [val_main_v25_apply, val_main_v16_apply, val_main_v15_apply, val_main_v2_apply]
  have hn := n.isLt
  exact congrArg x1 (funext fun a => Fin.ext (by
    match a with
    | ⟨0, _⟩ => show (0 * 20000 + n.val) / 1 % 20000 = n.val; omega
    | ⟨1, _⟩ => rfl))

/-- Prior width (column 2) as the centre's scale, at (b, n). -/
theorem priorWc (b : Fin 16) (n : Fin 20000) : val_main_v11 (F := Ideal) x1 (ix2 b n) = x1 (ix2 n 2) := by
  rw [val_main_v11_apply, val_main_v10_apply, val_main_v9_apply, val_main_v2_apply]
  have hn := n.isLt
  exact congrArg x1 (funext fun a => Fin.ext (by
    match a with
    | ⟨0, _⟩ => show (0 * 20000 + n.val) / 1 % 20000 = n.val; omega
    | ⟨1, _⟩ => rfl))

/-- Prior height (column 3) as the centre's scale, at (b, n). -/
theorem priorHc (b : Fin 16) (n : Fin 20000) : val_main_v23 (F := Ideal) x1 (ix2 b n) = x1 (ix2 n 3) := by
  rw [val_main_v23_apply, val_main_v22_apply, val_main_v21_apply, val_main_v2_apply]
  have hn := n.isLt
  exact congrArg x1 (funext fun a => Fin.ext (by
    match a with
    | ⟨0, _⟩ => show (0 * 20000 + n.val) / 1 % 20000 = n.val; omega
    | ⟨1, _⟩ => rfl))

/-- Prior width (column 2) as the extent's base, at (b, n). -/
theorem priorWe (b : Fin 16) (n : Fin 20000) : val_main_v34 (F := Ideal) x1 (ix2 b n) = x1 (ix2 n 2) := by
  rw [val_main_v34_apply, val_main_v28_apply, val_main_v27_apply, val_main_v2_apply]
  have hn := n.isLt
  exact congrArg x1 (funext fun a => Fin.ext (by
    match a with
    | ⟨0, _⟩ => show (0 * 20000 + n.val) / 1 % 20000 = n.val; omega
    | ⟨1, _⟩ => rfl))

/-- Prior height (column 3) as the extent's base, at (b, n). -/
theorem priorHe (b : Fin 16) (n : Fin 20000) : val_main_v43 (F := Ideal) x1 (ix2 b n) = x1 (ix2 n 3) := by
  rw [val_main_v43_apply, val_main_v37_apply, val_main_v36_apply, val_main_v2_apply]
  have hn := n.isLt
  exact congrArg x1 (funext fun a => Fin.ext (by
    match a with
    | ⟨0, _⟩ => show (0 * 20000 + n.val) / 1 % 20000 = n.val; omega
    | ⟨1, _⟩ => rfl))

/-! ## The offset columns of the prediction array -/

/-- Offset of the centre's x (column 0), at (b, n). -/
theorem predX (b : Fin 16) (n : Fin 20000) : val_main_v6 (F := Ideal) x0 (ix2 b n) = x0 (ix3 b n 0) := by
  rw [val_main_v6_apply, val_main_v5_apply, val_main_v0_apply]
  have hb := b.isLt
  have hn := n.isLt
  exact congrArg x0 (funext fun a => Fin.ext (by
    match a with
    | ⟨0, _⟩ => show (b.val * 20000 + n.val) / 20000 = b.val; omega
    | ⟨1, _⟩ => show (b.val * 20000 + n.val) / 1 % 20000 = n.val; omega
    | ⟨2, _⟩ => rfl))

/-- Offset of the centre's y (column 1), at (b, n). -/
theorem predY (b : Fin 16) (n : Fin 20000) : val_main_v18 (F := Ideal) x0 (ix2 b n) = x0 (ix3 b n 1) := by
  rw [val_main_v18_apply, val_main_v17_apply, val_main_v0_apply]
  have hb := b.isLt
  have hn := n.isLt
  exact congrArg x0 (funext fun a => Fin.ext (by
    match a with
    | ⟨0, _⟩ => show (b.val * 20000 + n.val) / 20000 = b.val; omega
    | ⟨1, _⟩ => show (b.val * 20000 + n.val) / 1 % 20000 = n.val; omega
    | ⟨2, _⟩ => rfl))

/-- Offset of the width (column 2), at (b, n). -/
theorem predW (b : Fin 16) (n : Fin 20000) : val_main_v30 (F := Ideal) x0 (ix2 b n) = x0 (ix3 b n 2) := by
  rw [val_main_v30_apply, val_main_v29_apply, val_main_v0_apply]
  have hb := b.isLt
  have hn := n.isLt
  exact congrArg x0 (funext fun a => Fin.ext (by
    match a with
    | ⟨0, _⟩ => show (b.val * 20000 + n.val) / 20000 = b.val; omega
    | ⟨1, _⟩ => show (b.val * 20000 + n.val) / 1 % 20000 = n.val; omega
    | ⟨2, _⟩ => rfl))

/-- Offset of the height (column 3), at (b, n). -/
theorem predH (b : Fin 16) (n : Fin 20000) : val_main_v39 (F := Ideal) x0 (ix2 b n) = x0 (ix3 b n 3) := by
  rw [val_main_v39_apply, val_main_v38_apply, val_main_v0_apply]
  have hb := b.isLt
  have hn := n.isLt
  exact congrArg x0 (funext fun a => Fin.ext (by
    match a with
    | ⟨0, _⟩ => show (b.val * 20000 + n.val) / 20000 = b.val; omega
    | ⟨1, _⟩ => show (b.val * 20000 + n.val) / 1 % 20000 = n.val; omega
    | ⟨2, _⟩ => rfl))

/-! ## Centre ∓ half extent, at (b, n) -/

/-- xmin at (b, n). -/
theorem xmin (b : Fin 16) (n : Fin 20000) :
    val_main_v47 (F := Ideal) x0 x1 (ix2 b n) = Cert.BoxSpec.cornerDiv (fun q => x0 (ix3 b n q)) (fun q => x1 (ix2 n q)) 0 := by
  rw [val_main_v47_apply, val_main_v14_apply, val_main_v12_apply, val_main_v8_apply, val_main_v7_apply, val_main_cst_apply,
    val_main_v46_apply, val_main_v35_apply, val_main_v33_apply, val_main_v32_apply, val_main_v31_apply, val_main_cst_1_apply,
    val_main_v45_apply, val_main_cst_3_apply, priorCx, priorWc, predX, priorWe, predW]
  rfl

/-- ymin at (b, n). -/
theorem ymin (b : Fin 16) (n : Fin 20000) :
    val_main_v50 (F := Ideal) x0 x1 (ix2 b n) = Cert.BoxSpec.cornerDiv (fun q => x0 (ix3 b n q)) (fun q => x1 (ix2 n q)) 1 := by
  rw [val_main_v50_apply, val_main_v26_apply, val_main_v24_apply, val_main_v20_apply, val_main_v19_apply, val_main_cst_0_apply,
    val_main_v49_apply, val_main_v44_apply, val_main_v42_apply, val_main_v41_apply, val_main_v40_apply, val_main_cst_2_apply,
    val_main_v48_apply, val_main_cst_4_apply, priorCy, priorHc, predY, priorHe, predH]
  rfl

/-- xmax at (b, n). -/
theorem xmax (b : Fin 16) (n : Fin 20000) :
    val_main_v53 (F := Ideal) x0 x1 (ix2 b n) = Cert.BoxSpec.cornerDiv (fun q => x0 (ix3 b n q)) (fun q => x1 (ix2 n q)) 2 := by
  rw [val_main_v53_apply, val_main_v14_apply, val_main_v12_apply, val_main_v8_apply, val_main_v7_apply, val_main_cst_apply,
    val_main_v52_apply, val_main_v35_apply, val_main_v33_apply, val_main_v32_apply, val_main_v31_apply, val_main_cst_1_apply,
    val_main_v51_apply, val_main_cst_5_apply, priorCx, priorWc, predX, priorWe, predW]
  rfl

/-- ymax at (b, n). -/
theorem ymax (b : Fin 16) (n : Fin 20000) :
    val_main_v56 (F := Ideal) x0 x1 (ix2 b n) = Cert.BoxSpec.cornerDiv (fun q => x0 (ix3 b n q)) (fun q => x1 (ix2 n q)) 3 := by
  rw [val_main_v56_apply, val_main_v26_apply, val_main_v24_apply, val_main_v20_apply, val_main_v19_apply, val_main_cst_0_apply,
    val_main_v55_apply, val_main_v44_apply, val_main_v42_apply, val_main_v41_apply, val_main_v40_apply, val_main_cst_2_apply,
    val_main_v54_apply, val_main_cst_6_apply, priorCy, priorHc, predY, priorHe, predH]
  rfl

/-! ## The four slabs, joined -/

theorem slabXmin (b : Fin 16) (n : Fin 20000) (z : Fin 1) :
    val_main_v57 (F := Ideal) x0 x1 (ix3 b n z) = val_main_v47 (F := Ideal) x0 x1 (ix2 b n) := by
  rw [val_main_v57_apply]
  exact congrArg (val_main_v47 (F := Ideal) x0 x1) (funext fun a => match a with | ⟨0, _⟩ => rfl | ⟨1, _⟩ => rfl)

theorem slabYmin (b : Fin 16) (n : Fin 20000) (z : Fin 1) :
    val_main_v58 (F := Ideal) x0 x1 (ix3 b n z) = val_main_v50 (F := Ideal) x0 x1 (ix2 b n) := by
  rw [val_main_v58_apply]
  exact congrArg (val_main_v50 (F := Ideal) x0 x1) (funext fun a => match a with | ⟨0, _⟩ => rfl | ⟨1, _⟩ => rfl)

theorem slabXmax (b : Fin 16) (n : Fin 20000) (z : Fin 1) :
    val_main_v59 (F := Ideal) x0 x1 (ix3 b n z) = val_main_v53 (F := Ideal) x0 x1 (ix2 b n) := by
  rw [val_main_v59_apply]
  exact congrArg (val_main_v53 (F := Ideal) x0 x1) (funext fun a => match a with | ⟨0, _⟩ => rfl | ⟨1, _⟩ => rfl)

theorem slabYmax (b : Fin 16) (n : Fin 20000) (z : Fin 1) :
    val_main_v60 (F := Ideal) x0 x1 (ix3 b n z) = val_main_v56 (F := Ideal) x0 x1 (ix2 b n) := by
  rw [val_main_v60_apply]
  exact congrArg (val_main_v56 (F := Ideal) x0 x1) (funext fun a => match a with | ⟨0, _⟩ => rfl | ⟨1, _⟩ => rfl)

/-- Four [16, 20000, 1] slabs joined along the last axis, read at (b, n, k), give slab `k` at (b, n, 0). -/
theorem fourSlabs {α : Type} (v0 v1 v2 v3 : S16x20000x1.Idx → α)
    (h : Shape.Concatenates [S16x20000x1, S16x20000x1, S16x20000x1, S16x20000x1] S16x20000x4 2)
    (b : Fin 16) (n : Fin 20000) (k : Fin 4) :
    concatenate S16x20000x4 2 [⟨S16x20000x1, v0⟩, ⟨S16x20000x1, v1⟩, ⟨S16x20000x1, v2⟩, ⟨S16x20000x1, v3⟩] h (ix3 b n k)
      = (match k with | ⟨0, _⟩ => v0 | ⟨1, _⟩ => v1 | ⟨2, _⟩ => v2 | ⟨3, _⟩ => v3) (ix3 b n 0) := by
  have hi : ∀ a : Fin S16x20000x1.rank, a.cast (rfl : S16x20000x1.rank = S16x20000x4.rank) ≠ (2 : Fin S16x20000x4.rank) →
      ((ix3 b n (0 : Fin 1) : S16x20000x1.Idx) a).val = ((ix3 b n k : S16x20000x4.Idx) (a.cast rfl)).val := fun a ha => by
    match a with
    | ⟨0, _⟩ => rfl
    | ⟨1, _⟩ => rfl
    | ⟨2, _⟩ => exact absurd rfl ha
  match k with
  | ⟨0, _⟩ => exact concatenate_apply_piece 2 [⟨S16x20000x1, v0⟩, ⟨S16x20000x1, v1⟩, ⟨S16x20000x1, v2⟩, ⟨S16x20000x1, v3⟩] h (ix3 b n _) 0 (by simp) S16x20000x1 v0 rfl rfl 0 rfl (ix3 b n 0) hi rfl
  | ⟨1, _⟩ => exact concatenate_apply_piece 2 [⟨S16x20000x1, v0⟩, ⟨S16x20000x1, v1⟩, ⟨S16x20000x1, v2⟩, ⟨S16x20000x1, v3⟩] h (ix3 b n _) 1 (by simp) S16x20000x1 v1 rfl rfl 1 rfl (ix3 b n 0) hi rfl
  | ⟨2, _⟩ => exact concatenate_apply_piece 2 [⟨S16x20000x1, v0⟩, ⟨S16x20000x1, v1⟩, ⟨S16x20000x1, v2⟩, ⟨S16x20000x1, v3⟩] h (ix3 b n _) 2 (by simp) S16x20000x1 v2 rfl rfl 2 rfl (ix3 b n 0) hi rfl
  | ⟨3, _⟩ => exact concatenate_apply_piece 2 [⟨S16x20000x1, v0⟩, ⟨S16x20000x1, v1⟩, ⟨S16x20000x1, v2⟩, ⟨S16x20000x1, v3⟩] h (ix3 b n _) 3 (by simp) S16x20000x1 v3 rfl rfl 3 rfl (ix3 b n 0) hi rfl

/-! ## The reference's two results -/

/-- THE REFERENCE'S FIRST RESULT is the decoded corners of its arguments. -/
theorem refCorners : val_main_v61 (F := Ideal) x0 x1 = Cert.BoxSpec.corners x0 x1 := by
  funext i
  obtain ⟨b, n, k, rfl⟩ : ∃ (b : Fin 16) (n : Fin 20000) (k : Fin 4), i = ix3 b n k := ⟨i 0, i 1, i 2, eq_ix3 i⟩
  rw [Cert.BoxSpec.corners_apply, ← Cert.BoxSpec.cornerDiv_eq]
  unfold val_main_v61
  refine (fourSlabs _ _ _ _ _ b n k).trans ?_
  match k with
  | ⟨0, _⟩ => exact (slabXmin x0 x1 b n 0).trans (xmin x0 x1 b n)
  | ⟨1, _⟩ => exact (slabYmin x0 x1 b n 0).trans (ymin x0 x1 b n)
  | ⟨2, _⟩ => exact (slabXmax x0 x1 b n 0).trans (xmax x0 x1 b n)
  | ⟨3, _⟩ => exact (slabYmax x0 x1 b n 0).trans (ymax x0 x1 b n)

/-- THE REFERENCE'S SECOND RESULT is the kept-score bits of its prediction array. -/
theorem refMask : val_main_v63 (F := Ideal) x0 = Cert.BoxSpec.confident x0 := by
  funext i
  obtain ⟨b, n, k, rfl⟩ : ∃ (b : Fin 16) (n : Fin 20000) (k : Fin 81), i = ix3 b n k := ⟨i 0, i 1, i 2, eq_ix3 i⟩
  rw [val_main_v63_apply, val_main_v1_apply, val_main_v62_apply, val_main_cst_7_apply, Cert.BoxSpec.confident_apply]
  exact congrArg (fun j => FloatOps.cmpf (F := Ideal) (φ := .f32) .ogt (x0 j) (Ideal.ofBits .f32 0x3C23D70A#32))
    (funext fun a => match a with | ⟨0, _⟩ => rfl | ⟨1, _⟩ => rfl | ⟨2, _⟩ => rfl)

end Cert.ReferenceIdeal.BoxValue

end
-- ==== Proof.lean ====
/-
  SSD box decoding with a confidence mask: the kernel against its reference, over the extended reals.

  Both programs take a prediction array [16, 20000, 85] (four regression offsets, then 81 class scores per row)
  and a prior table [20000, 4] (centre x, centre y, width, height).  Both return the decoded corner array
  [16, 20000, 4] — centre ∓ half extent, with centre = prior centre + (1/10 literal)·offset·prior extent and
  extent = prior extent·exp((1/5 literal)·offset) — and the mask [16, 20000, 81] of the scores above the threshold
  literal.  They differ in one place: the kernel multiplies the prior extent by 1/2 before the exponential
  factor, the reference divides the finished extent by 2.  On the extended reals (1/2·d)·e = (d·e)/2 for every
  d and e (`Cert.BoxSpec.half_mul_mul_eq_div_two`), so the precondition's finiteness is never used.

  The pieces: Proof/BoxSpec.lean states the two result arrays as functions of the arguments, index by index, and
  proves that law; Proof/BoxPayload.lean reads what the kernel's body stores from one grid point's blocks;
  Proof/BoxArrays.lean passes from the 160 blocks to the whole arrays; Proof/BoxRun.lean reads the kernel
  program's run, including the word-by-word "not equal to zero" that turns the stored 32-bit mask words back into
  bits; Proof/RefBox.lean reads the reference's run at an index.  Here the two runs are set side by side.  The three
  frames are the generated ones (the reference's is its generated run with the results dropped); the idealization
  rewrote nothing, so `preserves` holds trivially.
-/
import proofs.«167822_g20529943675129_cont_sun_c4_269_3_alg».proof.Defs
import proofs.«167822_g20529943675129_cont_sun_c4_269_3_alg».proof.Proof.Gen.Kernel
import proofs.«167822_g20529943675129_cont_sun_c4_269_3_alg».proof.Proof.Gen.Kernel.Skeleton
import proofs.«167822_g20529943675129_cont_sun_c4_269_3_alg».proof.Proof.Gen.Kernel.Launch
import proofs.«167822_g20529943675129_cont_sun_c4_269_3_alg».proof.Proof.Gen.Kernel.Points
import proofs.«167822_g20529943675129_cont_sun_c4_269_3_alg».proof.Proof.Gen.Kernel.Frame
import proofs.«167822_g20529943675129_cont_sun_c4_269_3_alg».proof.Proof.Gen.KernelIdeal
import proofs.«167822_g20529943675129_cont_sun_c4_269_3_alg».proof.Proof.Gen.KernelIdeal.Skeleton
import proofs.«167822_g20529943675129_cont_sun_c4_269_3_alg».proof.Proof.Gen.KernelIdeal.Launch
import proofs.«167822_g20529943675129_cont_sun_c4_269_3_alg».proof.Proof.Gen.KernelIdeal.Points
import proofs.«167822_g20529943675129_cont_sun_c4_269_3_alg».proof.Proof.Gen.KernelIdeal.Frame
import proofs.«167822_g20529943675129_cont_sun_c4_269_3_alg».proof.Proof.Gen.ReferenceIdeal
import proofs.«167822_g20529943675129_cont_sun_c4_269_3_alg».proof.Proof.Gen.ReferenceIdeal.Run
import proofs.«167822_g20529943675129_cont_sun_c4_269_3_alg».proof.Proof.Gen.ReferenceIdeal.Read
import proofs.«167822_g20529943675129_cont_sun_c4_269_3_alg».proof.Proof.Gen.Pre_finite_inputs
import proofs.«167822_g20529943675129_cont_sun_c4_269_3_alg».proof.Proof.BoxRun
import proofs.«167822_g20529943675129_cont_sun_c4_269_3_alg».proof.Proof.RefBox
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Run from memories agreeing on the arguments, both programs end with the decoded corners and the kept-score
    bits of those arguments. -/
theorem algebraic : Cert.algebraic_KernelIdeal_ReferenceIdeal := by
  intro m ρ m' ρ' _ hagree
  refine ⟨fun c => Cert.BoxSpec.corners (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.BoxSpec.confident (m ((c.tc : Thread Cert.KernelIdeal.nD Cert.KernelIdeal.τ).loc Cert.KernelIdeal.main_arg0)),
    Cert.KernelIdeal.BoxValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v61_eq, Cert.ReferenceIdeal.BoxValue.refCorners, (hagree c).1, (hagree c).2]
  · rw [(h c).2.1, Cert.ReferenceIdeal.Read.val_main_v63_eq, Cert.ReferenceIdeal.BoxValue.refMask, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
